-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S8388608x2 : Shape := ⟨2, ![8388608, 2]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel
  bcast_S_S8388608x2 : S_.BroadcastsInDim S8388608x2 (![] : Fin 0 → Fin S8388608x2.rank)
  reducesTo_S8388608x2_S_d0_1 : S8388608x2.ReducesTo [0, 1] S_

variable [Facts]

def fn_part3 {F : FTy → Type} [FloatOps F] (main_v48 : IVec S_ 1) (main_v49 : FVec F S8388608 .f32) (main_v50 : FVec F S8388608 .f32) : IVec S_ 1 :=
  let main_v51 : IVec S8388608 1 := cmpf .olt main_v49 main_v50
  let main_c_19 : IVec S_ 1 := constantI S_ 1 1#1
  let main_v52 : IVec S_ 1 := (fun x v => Host.reduce IntOp.andi x v reducesTo_S8388608_S_d0 h_S_) main_v51 main_c_19
  let main_v53 : IVec S_ 1 := andi main_v48 main_v52
  main_v53

def fn_part2 {F : FTy → Type} [FloatOps F] (main_arg7 : FVec F S8388608 .f32) (main_arg8 : FVec F S8388608x2 .f32) (main_arg9 : FVec F S8388608x2 .f32) (main_arg10 : FVec F S8388608 .f32) (main_v33 : IVec S_ 1) : IVec S_ 1 :=
  let main_v34 : FVec F S8388608 .f32 := Host.absf main_arg7
  let main_cst_12 : FVec F S_ .f32 := constant S_ .f32 0x7F800000#32
  let main_v35 : FVec F S8388608 .f32 := broadcastInDim S8388608 ![] bcast_S_S8388608 main_cst_12
  let main_v36 : IVec S8388608 1 := cmpf .olt main_v34 main_v35
  let main_c_13 : IVec S_ 1 := constantI S_ 1 1#1
  let main_v37 : IVec S_ 1 := (fun x v => Host.reduce IntOp.andi x v reducesTo_S8388608_S_d0 h_S_) main_v36 main_c_13
  let main_v38 : IVec S_ 1 := andi main_v33 main_v37
  let main_v39 : FVec F S8388608x2 .f32 := Host.absf main_arg8
  let main_cst_14 : FVec F S_ .f32 := constant S_ .f32 0x7F800000#32
  let main_v40 : FVec F S8388608x2 .f32 := broadcastInDim S8388608x2 ![] bcast_S_S8388608x2 main_cst_14
  let main_v41 : IVec S8388608x2 1 := cmpf .olt main_v39 main_v40
  let main_c_15 : IVec S_ 1 := constantI S_ 1 1#1
  let main_v42 : IVec S_ 1 := (fun x v => Host.reduce IntOp.andi x v reducesTo_S8388608x2_S_d0_1 h_S_) main_v41 main_c_15
  let main_v43 : IVec S_ 1 := andi main_v38 main_v42
  let main_v44 : FVec F S8388608x2 .f32 := Host.absf main_arg9
  let main_cst_16 : FVec F S_ .f32 := constant S_ .f32 0x7F800000#32
  let main_v45 : FVec F S8388608x2 .f32 := broadcastInDim S8388608x2 ![] bcast_S_S8388608x2 main_cst_16
  let main_v46 : IVec S8388608x2 1 := cmpf .olt main_v44 main_v45
  let main_c_17 : IVec S_ 1 := constantI S_ 1 1#1
  let main_v47 : IVec S_ 1 := (fun x v => Host.reduce IntOp.andi x v reducesTo_S8388608x2_S_d0_1 h_S_) main_v46 main_c_17
  let main_v48 : IVec S_ 1 := andi main_v43 main_v47
  let main_v49 : FVec F S8388608 .f32 := Host.absf main_arg10
  let main_cst_18 : FVec F S_ .f32 := constant S_ .f32 0x7F800000#32
  let main_v50 : FVec F S8388608 .f32 := broadcastInDim S8388608 ![] bcast_S_S8388608 main_cst_18
  fn_part3 (F := F) main_v48 main_v49 main_v50

def fn_part1 {F : FTy → Type} [FloatOps F] (main_arg4 : FVec F S8388608 .f32) (main_arg5 : FVec F S8388608 .f32) (main_arg6 : FVec F S8388608 .f32) (main_arg7 : FVec F S8388608 .f32) (main_arg8 : FVec F S8388608x2 .f32) (main_arg9 : FVec F S8388608x2 .f32) (main_arg10 : FVec F S8388608 .f32) (main_v13 : IVec S_ 1) (main_v16 : IVec S8388608 1) : IVec S_ 1 :=
  let main_c_5 : IVec S_ 1 := constantI S_ 1 1#1
  let main_v17 : IVec S_ 1 := (fun x v => Host.reduce IntOp.andi x v reducesTo_S8388608_S_d0 h_S_) main_v16 main_c_5
  let main_v18 : IVec S_ 1 := andi main_v13 main_v17
  let main_v19 : FVec F S8388608 .f32 := Host.absf main_arg4
  let main_cst_6 : FVec F S_ .f32 := constant S_ .f32 0x7F800000#32
  let main_v20 : FVec F S8388608 .f32 := broadcastInDim S8388608 ![] bcast_S_S8388608 main_cst_6
  let main_v21 : IVec S8388608 1 := cmpf .olt main_v19 main_v20
  let main_c_7 : IVec S_ 1 := constantI S_ 1 1#1
  let main_v22 : IVec S_ 1 := (fun x v => Host.reduce IntOp.andi x v reducesTo_S8388608_S_d0 h_S_) main_v21 main_c_7
  let main_v23 : IVec S_ 1 := andi main_v18 main_v22
  let main_v24 : FVec F S8388608 .f32 := Host.absf main_arg5
  let main_cst_8 : FVec F S_ .f32 := constant S_ .f32 0x7F800000#32
  let main_v25 : FVec F S8388608 .f32 := broadcastInDim S8388608 ![] bcast_S_S8388608 main_cst_8
  let main_v26 : IVec S8388608 1 := cmpf .olt main_v24 main_v25
  let main_c_9 : IVec S_ 1 := constantI S_ 1 1#1
  let main_v27 : IVec S_ 1 := (fun x v => Host.reduce IntOp.andi x v reducesTo_S8388608_S_d0 h_S_) main_v26 main_c_9
  let main_v28 : IVec S_ 1 := andi main_v23 main_v27
  let main_v29 : FVec F S8388608 .f32 := Host.absf main_arg6
  let main_cst_10 : FVec F S_ .f32 := constant S_ .f32 0x7F800000#32
  let main_v30 : FVec F S8388608 .f32 := broadcastInDim S8388608 ![] bcast_S_S8388608 main_cst_10
  let main_v31 : IVec S8388608 1 := cmpf .olt main_v29 main_v30
  let main_c_11 : IVec S_ 1 := constantI S_ 1 1#1
  let main_v32 : IVec S_ 1 := (fun x v => Host.reduce IntOp.andi x v reducesTo_S8388608_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8388608 .f32) (main_arg1 : FVec F S8388608x2 .f32) (main_arg2 : FVec F S8388608 .f32) (main_arg3 : FVec F S8388608 .f32) (main_arg4 : FVec F S8388608 .f32) (main_arg5 : FVec F S8388608 .f32) (main_arg6 : FVec F S8388608 .f32) (main_arg7 : FVec F S8388608 .f32) (main_arg8 : FVec F S8388608x2 .f32) (main_arg9 : FVec F S8388608x2 .f32) (main_arg10 : FVec F S8388608 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  let main_v9 : FVec F S8388608 .f32 := Host.absf main_arg2
  let main_cst_2 : FVec F S_ .f32 := constant S_ .f32 0x7F800000#32
  let main_v10 : FVec F S8388608 .f32 := broadcastInDim S8388608 ![] bcast_S_S8388608 main_cst_2
  let main_v11 : IVec S8388608 1 := cmpf .olt main_v9 main_v10
  let main_c_3 : IVec S_ 1 := constantI S_ 1 1#1
  let main_v12 : IVec S_ 1 := (fun x v => Host.reduce IntOp.andi x v reducesTo_S8388608_S_d0 h_S_) main_v11 main_c_3
  let main_v13 : IVec S_ 1 := andi main_v8 main_v12
  let main_v14 : FVec F S8388608 .f32 := Host.absf main_arg3
  let main_cst_4 : FVec F S_ .f32 := constant S_ .f32 0x7F800000#32
  let main_v15 : FVec F S8388608 .f32 := broadcastInDim S8388608 ![] bcast_S_S8388608 main_cst_4
  let main_v16 : IVec S8388608 1 := cmpf .olt main_v14 main_v15
  fn_part1 (F := F) main_arg4 main_arg5 main_arg6 main_arg7 main_arg8 main_arg9 main_arg10 main_v13 main_v16
-- ==== Kernel.lean ====
abbrev S8388608 : Shape := ⟨1, ![8388608]⟩
abbrev S8388608x2 : Shape := ⟨2, ![8388608, 2]⟩
abbrev S4096 : Shape := ⟨1, ![4096]⟩
abbrev S4096x2 : Shape := ⟨2, ![4096, 2]⟩
abbrev S4096x1 : Shape := ⟨2, ![4096, 1]⟩

abbrev nBuf : Space → Nat
  | .hbm => 14
  | .vmem => 28
  | .smem => 0
  | _ => 0

abbrev bufTy : (tb : Table) → Fin (tcTables nBuf tb) → BufTy
  | .hbm, ⟨0, _⟩ => ⟨S8388608, .f32⟩
  | .hbm, ⟨1, _⟩ => ⟨S8388608x2, .f32⟩
  | .hbm, ⟨2, _⟩ => ⟨S8388608, .f32⟩
  | .hbm, ⟨3, _⟩ => ⟨S8388608, .f32⟩
  | .hbm, ⟨4, _⟩ => ⟨S8388608, .f32⟩
  | .hbm, ⟨5, _⟩ => ⟨S8388608, .f32⟩
  | .hbm, ⟨6, _⟩ => ⟨S8388608, .f32⟩
  | .hbm, ⟨7, _⟩ => ⟨S8388608, .f32⟩
  | .hbm, ⟨8, _⟩ => ⟨S8388608x2, .f32⟩
  | .hbm, ⟨9, _⟩ => ⟨S8388608x2, .f32⟩
  | .hbm, ⟨10, _⟩ => ⟨S8388608, .f32⟩
  | .hbm, ⟨11, _⟩ => ⟨S8388608, .f32⟩
  | .hbm, ⟨12, _⟩ => ⟨S8388608x2, .f32⟩
  | .hbm, ⟨13, _⟩ => ⟨S8388608, .f32⟩
  | .local _ .vmem, ⟨0, _⟩ => ⟨S4096, .f32⟩
  | .local _ .vmem, ⟨1, _⟩ => ⟨S4096, .f32⟩
  | .local _ .vmem, ⟨2, _⟩ => ⟨S4096x2, .f32⟩
  | .local _ .vmem, ⟨3, _⟩ => ⟨S4096x2, .f32⟩
  | .local _ .vmem, ⟨4, _⟩ => ⟨S4096, .f32⟩
  | .local _ .vmem, ⟨5, _⟩ => ⟨S4096, .f32⟩
  | .local _ .vmem, ⟨6, _⟩ => ⟨S4096, .f32⟩
  | .local _ .vmem, ⟨7, _⟩ => ⟨S4096, .f32⟩
  | .local _ .vmem, ⟨8, _⟩ => ⟨S4096, .f32⟩
  | .local _ .vmem, ⟨9, _⟩ => ⟨S4096, .f32⟩
  | .local _ .vmem, ⟨10, _⟩ => ⟨S4096, .f32⟩
  | .local _ .vmem, ⟨11, _⟩ => ⟨S4096, .f32⟩
  | .local _ .vmem, ⟨12, _⟩ => ⟨S4096, .f32⟩
  | .local _ .vmem, ⟨13, _⟩ => ⟨S4096, .f32⟩
  | .local _ .vmem, ⟨14, _⟩ => ⟨S4096, .f32⟩
  | .local _ .vmem, ⟨15, _⟩ => ⟨S4096, .f32⟩
  | .local _ .vmem, ⟨16, _⟩ => ⟨S4096x2, .f32⟩
  | .local _ .vmem, ⟨17, _⟩ => ⟨S4096x2, .f32⟩
  | .local _ .vmem, ⟨18, _⟩ => ⟨S4096x2, .f32⟩
  | .local _ .vmem, ⟨19, _⟩ => ⟨S4096x2, .f32⟩
  | .local _ .vmem, ⟨20, _⟩ => ⟨S4096, .f32⟩
  | .local _ .vmem, ⟨21, _⟩ => ⟨S4096, .f32⟩
  | .local _ .vmem, ⟨22, _⟩ => ⟨S4096, .f32⟩
  | .local _ .vmem, ⟨23, _⟩ => ⟨S4096, .f32⟩
  | .local _ .vmem, ⟨24, _⟩ => ⟨S4096x2, .f32⟩
  | .local _ .vmem, ⟨25, _⟩ => ⟨S4096x2, .f32⟩
  | .local _ .vmem, ⟨26, _⟩ => ⟨S4096, .f32⟩
  | .local _ .vmem, ⟨27, _⟩ => ⟨S4096, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![2048], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 1 → Nat :=
  let arg0 : BitVec 32 := BitVec.ofNat 32 (i 0).val
  let c0_i32 : BitVec 32 := 0#32
  ![arg0.toNat]

def cc0_transform_11 (i : grid0.Coords) : Fin 1 → Nat :=
  let arg0 : BitVec 32 := BitVec.ofNat 32 (i 0).val
  let c0_i32 : BitVec 32 := 0#32
  ![arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S4096_S4096_0 : ∀ a, (![0] : Fin 1 → Nat) a + S4096.size a ≤ S4096.size a
  h_S4096 : 0 < S4096.numel
  inb_S4096x2_S4096x2_0_0 : ∀ a, (![0, 0] : Fin 2 → Nat) a + S4096x2.size a ≤ S4096x2.size a
  h_S4096x2 : 0 < S4096x2.numel
  slices_S4096x2_o0_0_S4096x1 : S4096x2.Slices ![0, 0] S4096x1
  shapeCasts_S4096x1_S4096 : S4096x1.ShapeCasts S4096
  slices_S4096x2_o0_1_S4096x1 : S4096x2.Slices ![0, 1] S4096x1
  natLt_1_32 : 1 < 32
  shapeCasts_S4096_S4096x1 : S4096.ShapeCasts S4096x1
  broadcasts_S4096x1_S4096x2 : S4096x1.Broadcasts S4096x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S8388608.size a
  hwx0_0 : ∀ i : grid0.Coords, EltTy.bits .f32 = 32 ∨ (Rect.block (s := S8388608) S4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S8388608x2.size a
  hwx0_1 : ∀ i : grid0.Coords, EltTy.bits .f32 = 32 ∨ (Rect.block (s := S8388608x2) S4096x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S8388608.size a
  hwx0_2 : ∀ i : grid0.Coords, EltTy.bits .f32 = 32 ∨ (Rect.block (s := S8388608) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S8388608.size a
  hwx0_3 : ∀ i : grid0.Coords, EltTy.bits .f32 = 32 ∨ (Rect.block (s := S8388608) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S8388608.size a
  hwx0_4 : ∀ i : grid0.Coords, EltTy.bits .f32 = 32 ∨ (Rect.block (s := S8388608) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S8388608.size a
  hwx0_5 : ∀ i : grid0.Coords, EltTy.bits .f32 = 32 ∨ (Rect.block (s := S8388608) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S8388608.size a
  hwx0_6 : ∀ i : grid0.Coords, EltTy.bits .f32 = 32 ∨ (Rect.block (s := S8388608) S4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S8388608.size a
  hwx0_7 : ∀ i : grid0.Coords, EltTy.bits .f32 = 32 ∨ (Rect.block (s := S8388608) S4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x2.size a ≤ S8388608x2.size a
  hwx0_8 : ∀ i : grid0.Coords, EltTy.bits .f32 = 32 ∨ (Rect.block (s := S8388608x2) S4096x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x2.size a ≤ S8388608x2.size a
  hwx0_9 : ∀ i : grid0.Coords, EltTy.bits .f32 = 32 ∨ (Rect.block (s := S8388608x2) S4096x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096.size a ≤ S8388608.size a
  hwx0_10 : ∀ i : grid0.Coords, EltTy.bits .f32 = 32 ∨ (Rect.block (s := S8388608) S4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096.size a ≤ S8388608.size a
  hwx0_11 : ∀ i : grid0.Coords, EltTy.bits .f32 = 32 ∨ (Rect.block (s := S8388608) S4096.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x2.size a ≤ S8388608x2.size a
  hwx0_12 : ∀ i : grid0.Coords, EltTy.bits .f32 = 32 ∨ (Rect.block (s := S8388608x2) S4096x2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096.size a ≤ S8388608.size a
  hwx0_13 : ∀ i : grid0.Coords, EltTy.bits .f32 = 32 ∨ (Rect.block (s := S8388608) S4096.size (cc0_transform_13 i) (hinb0_13 i)).WholeWords (EltTy.packing .f32)

variable [Facts₀]

abbrev win0_0 : Pipeline.Window sig grid0 :=
  Pipeline.Window.ofSpec (Memref.whole main_arg0) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4096x2.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4096x2.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S4096.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S4096.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S4096x2.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_2) S4096.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8388608 : Shape := ⟨1, ![8388608]⟩
abbrev S8388608x2 : Shape := ⟨2, ![8388608, 2]⟩
abbrev S_ : Shape := ⟨0, ![]⟩
abbrev S8388608x1 : Shape := ⟨2, ![8388608, 1]⟩

abbrev nBuf : Space → Nat
  | .hbm => 43
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608x2, .f32⟩
  | .hbm, ⟨2, _⟩ => ⟨S8388608, .f32⟩
  | .hbm, ⟨3, _⟩ => ⟨S8388608, .f32⟩
  | .hbm, ⟨4, _⟩ => ⟨S8388608, .f32⟩
  | .hbm, ⟨5, _⟩ => ⟨S8388608, .f32⟩
  | .hbm, ⟨6, _⟩ => ⟨S8388608, .f32⟩
  | .hbm, ⟨7, _⟩ => ⟨S8388608, .f32⟩
  | .hbm, ⟨8, _⟩ => ⟨S8388608x2, .f32⟩
  | .hbm, ⟨9, _⟩ => ⟨S8388608x2, .f32⟩
  | .hbm, ⟨10, _⟩ => ⟨S8388608, .f32⟩
  | .hbm, ⟨11, _⟩ => ⟨S_, .f32⟩
  | .hbm, ⟨12, _⟩ => ⟨S8388608, .f32⟩
  | .hbm, ⟨13, _⟩ => ⟨S8388608, .f32⟩
  | .hbm, ⟨14, _⟩ => ⟨S8388608, .f32⟩
  | .hbm, ⟨15, _⟩ => ⟨S_, .f32⟩
  | .hbm, ⟨16, _⟩ => ⟨S8388608, .f32⟩
  | .hbm, ⟨17, _⟩ => ⟨S8388608, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .i1⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S8388608x2, .f32⟩
  | .hbm, ⟨34, _⟩ => ⟨S_, .f32⟩
  | .hbm, ⟨35, _⟩ => ⟨S8388608x2, .f32⟩
  | .hbm, ⟨36, _⟩ => ⟨S8388608x2, .f32⟩
  | .hbm, ⟨37, _⟩ => ⟨S8388608x2, .f32⟩
  | .hbm, ⟨38, _⟩ => ⟨S8388608x2, .f32⟩
  | .hbm, ⟨39, _⟩ => ⟨S8388608x1, .f32⟩
  | .hbm, ⟨40, _⟩ => ⟨S8388608x2, .f32⟩
  | .hbm, ⟨41, _⟩ => ⟨S8388608x2, .f32⟩
  | .hbm, ⟨42, _⟩ => ⟨S8388608x2, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608x2_S8388608_d1 : S8388608x2.ReducesTo [1] S8388608
  h_S_ : 0 < S_.numel
  bcast_S_S8388608x2 : S_.BroadcastsInDim S8388608x2 (![] : Fin 0 → Fin S8388608x2.rank)
  bcast_S8388608_S8388608x1_0 : S8388608.BroadcastsInDim S8388608x1 (![0] : Fin 1 → Fin S8388608x1.rank)
  bcast_S8388608x1_S8388608x2_0_1 : S8388608x1.BroadcastsInDim S8388608x2 (![0, 1] : Fin 2 → Fin S8388608x2.rank)

variable [Facts₀]

class Facts : Prop extends Facts₀ where

variable [Facts]
-- ==== Proof.Glif.lean ====
/-
  One step of a generalised leaky integrate-and-fire neuron with two after-spike currents, read on the extended
  reals, one neuron (one row of the state arrays) at a time.

  A neuron has a membrane potential `v`, two after-spike currents `I₀, I₁`, an input current `x`, a threshold
  `v_th`, a reset potential `v_reset`, a resting potential `v_rest`, a capacitance `c_m`, a time constant `τ`,
  a decay rate `k_j` and an amplitude `a_j` per after-spike current, and a flag `ρ` that is `1` when the neuron is
  not refractory.  One step of length `1` is

      v_∞  = v_rest + τ · (x + (I₀ + I₁)) / c_m          the potential the membrane relaxes to
      v'   = v_∞ + (v − v_∞) · exp(−1 / τ)                the relaxed potential
      s    = [v' − v_th > 0] · ρ                          the spike: the indicator of a threshold crossing, masked
      v⁺   = v' − (v_th − v_reset) · s                    the soft reset
      I_j⁺ = I_j · exp(−k_j · 1) + a_j · s                each after-spike current decays and is kicked by the spike

  with `/`, `exp` and `>` those of the extended reals (quotients by zero and at the infinities as
  `Ideal.div` fixes them; `exp (−∞) = 0`, `exp (+∞) = +∞`), and the three float constants `−1`, `0`, `1` the
  values of their binary words.  Nothing below uses any law of arithmetic: these are definitions, and the
  array functions `potentials`, `currents`, `spikes` apply them at every row of arrays of any number `n` of neurons —
  a block of rows of the state is itself such a state, which is what lets one block of a result be computed from
  the same block of the arguments.
-/
import Idealize.ShloMosaic.PureOps.Ideal
import Idealize.ShloMosaic.PureOps.Ideal.Laws
import Idealize.ShloMosaic.Lib.ValueIdx

noncomputable section

namespace Cert.Glif

open Idealize.ShloMosaic Idealize.ShloMosaic.ValueIdx

/-! ## One neuron -/

/-- The word of `−1.0`, the numerator of the leak exponent `−1 / τ`. -/
def negOne : EReal := Ideal.ofBits .f32 0xBF800000#32
/-- The word of `0.0`, which the threshold excess is compared with. -/
def zero : EReal := Ideal.ofBits .f32 0x00000000#32
/-- The word of `1.0`, the step length in `−k · 1`. -/
def one : EReal := Ideal.ofBits .f32 0x3F800000#32

/-- `v_∞ = v_rest + τ (x + (I₀ + I₁)) / c_m`. -/
def vInf (vrest tau x i0 i1 cm : EReal) : EReal := vrest + Ideal.div (tau * (x + (i0 + i1))) cm

/-- `v' = v_∞ + (v − v_∞) e^{−1/τ}`. -/
def vPrime (vrest tau x i0 i1 cm v : EReal) : EReal :=
  vInf vrest tau x i0 i1 cm + (v - vInf vrest tau x i0 i1 cm) * Ideal.exp (Ideal.div negOne tau)

/-- A bit as a number: `0` or `1`. -/
def bit (b : BitVec 1) : EReal := ((b.toNat : ℝ) : EReal)

/-- `s = [v' − v_th > 0] · ρ`. -/
def spike (vp vth rho : EReal) : EReal := bit (Ideal.cmp .ogt (vp - vth) zero) * rho

/-- `v⁺ = v' − (v_th − v_reset) s`. -/
def vPost (vp vth vreset s : EReal) : EReal := vp - (vth - vreset) * s

/-- `I⁺ = I e^{−k·1} + a s`. -/
def iPost (i k a s : EReal) : EReal := i * Ideal.exp (-k * one) + a * s

/-! ## Every neuron: the three result arrays as functions of the eleven argument arrays, for any number of neurons -/

/-- An array with one entry for each of `n` neurons. -/
abbrev PerNeuron (n : Nat) : Type := (⟨1, ![n]⟩ : Shape).Idx → EReal
/-- An array with one entry for each of `n` neurons and each of the two after-spike currents. -/
abbrev PerCurrent (n : Nat) : Type := (⟨2, ![n, 2]⟩ : Shape).Idx → EReal

variable {n : Nat}

/-- Neuron `r`'s relaxed potential `v'`, from its own entries of the arrays. -/
def vPrimeOf (v : PerNeuron n) (I : PerCurrent n) (x vrest cm tau : PerNeuron n) (r : Fin n) : EReal :=
  vPrime (vrest (ix1 r)) (tau (ix1 r)) (x (ix1 r)) (I (ix2 r (0 : Fin 2))) (I (ix2 r (1 : Fin 2))) (cm (ix1 r)) (v (ix1 r))

/-- Neuron `r`'s spike `s`. -/
def spikeOf (v : PerNeuron n) (I : PerCurrent n) (x vth vrest cm tau rho : PerNeuron n) (r : Fin n) : EReal :=
  spike (vPrimeOf v I x vrest cm tau r) (vth (ix1 r)) (rho (ix1 r))

/-- The potentials after the step. -/
def potentials (v : PerNeuron n) (I : PerCurrent n) (x vth vreset vrest cm tau rho : PerNeuron n) : PerNeuron n := fun i =>
  vPost (vPrimeOf v I x vrest cm tau (i 0)) (vth (ix1 (i 0))) (vreset (ix1 (i 0))) (spikeOf v I x vth vrest cm tau rho (i 0))

/-- The after-spike currents after the step. -/
def currents (v : PerNeuron n) (I : PerCurrent n) (x vth vrest cm tau : PerNeuron n) (k a : PerCurrent n) (rho : PerNeuron n) :
    PerCurrent n := fun i =>
  iPost (I (ix2 (i 0) (i 1))) (k (ix2 (i 0) (i 1))) (a (ix2 (i 0) (i 1))) (spikeOf v I x vth vrest cm tau rho (i 0))

/-- The spikes of the step. -/
def spikes (v : PerNeuron n) (I : PerCurrent n) (x vth vrest cm tau rho : PerNeuron n) : PerNeuron n := fun i =>
  spikeOf v I x vth vrest cm tau rho (i 0)

/-! ## Blocks of rows

The one-step functions are local to a row: neuron `r`'s results depend on row `r` of the arguments only. So if
arrays of `b` neurons hold the rows `e 0, e 1, …` of arrays of `n` neurons, each result of the small arrays at row `r` is
the result of the large ones at row `e r`. -/

section Rows

variable {b : Nat} (e : Fin b → Fin n)
  {v' x' vth' vreset' vrest' cm' tau' rho' : PerNeuron b} {I' k' a' : PerCurrent b}
  {v x vth vreset vrest cm tau rho : PerNeuron n} {I k a : PerCurrent n}

theorem vPrimeOf_rows (hv : ∀ r, v' (ix1 r) = v (ix1 (e r))) (hI : ∀ r c, I' (ix2 r c) = I (ix2 (e r) c))
    (hx : ∀ r, x' (ix1 r) = x (ix1 (e r))) (hvrest : ∀ r, vrest' (ix1 r) = vrest (ix1 (e r)))
    (hcm : ∀ r, cm' (ix1 r) = cm (ix1 (e r))) (htau : ∀ r, tau' (ix1 r) = tau (ix1 (e r))) (r : Fin b) :
    vPrimeOf v' I' x' vrest' cm' tau' r = vPrimeOf v I x vrest cm tau (e r) := by
  unfold vPrimeOf
  rw [hvrest r, htau r, hx r, hI r 0, hI r 1, hcm r, hv r]

theorem spikeOf_rows (hv : ∀ r, v' (ix1 r) = v (ix1 (e r))) (hI : ∀ r c, I' (ix2 r c) = I (ix2 (e r) c))
    (hx : ∀ r, x' (ix1 r) = x (ix1 (e r))) (hvth : ∀ r, vth' (ix1 r) = vth (ix1 (e r)))
    (hvrest : ∀ r, vrest' (ix1 r) = vrest (ix1 (e r))) (hcm : ∀ r, cm' (ix1 r) = cm (ix1 (e r)))
    (htau : ∀ r, tau' (ix1 r) = tau (ix1 (e r))) (hrho : ∀ r, rho' (ix1 r) = rho (ix1 (e r))) (r : Fin b) :
    spikeOf v' I' x' vth' vrest' cm' tau' rho' r = spikeOf v I x vth vrest cm tau rho (e r) := by
  unfold spikeOf
  rw [vPrimeOf_rows e hv hI hx hvrest hcm htau r, hvth r, hrho r]

theorem potentials_rows (hv : ∀ r, v' (ix1 r) = v (ix1 (e r))) (hI : ∀ r c, I' (ix2 r c) = I (ix2 (e r) c))
    (hx : ∀ r, x' (ix1 r) = x (ix1 (e r))) (hvth : ∀ r, vth' (ix1 r) = vth (ix1 (e r)))
    (hvreset : ∀ r, vreset' (ix1 r) = vreset (ix1 (e r))) (hvrest : ∀ r, vrest' (ix1 r) = vrest (ix1 (e r)))
    (hcm : ∀ r, cm' (ix1 r) = cm (ix1 (e r))) (htau : ∀ r, tau' (ix1 r) = tau (ix1 (e r)))
    (hrho : ∀ r, rho' (ix1 r) = rho (ix1 (e r))) (r : Fin b) :
    potentials v' I' x' vth' vreset' vrest' cm' tau' rho' (ix1 r)
      = potentials v I x vth vreset vrest cm tau rho (ix1 (e r)) := by
  show vPost (vPrimeOf v' I' x' vrest' cm' tau' r) (vth' (ix1 r)) (vreset' (ix1 r))
      (spikeOf v' I' x' vth' vrest' cm' tau' rho' r)
    = vPost (vPrimeOf v I x vrest cm tau (e r)) (vth (ix1 (e r))) (vreset (ix1 (e r)))
      (spikeOf v I x vth vrest cm tau rho (e r))
  rw [vPrimeOf_rows e hv hI hx hvrest hcm htau r, spikeOf_rows e hv hI hx hvth hvrest hcm htau hrho r, hvth r, hvreset r]

theorem currents_rows (hv : ∀ r, v' (ix1 r) = v (ix1 (e r))) (hI : ∀ r c, I' (ix2 r c) = I (ix2 (e r) c))
    (hx : ∀ r, x' (ix1 r) = x (ix1 (e r))) (hvth : ∀ r, vth' (ix1 r) = vth (ix1 (e r)))
    (hvrest : ∀ r, vrest' (ix1 r) = vrest (ix1 (e r))) (hcm : ∀ r, cm' (ix1 r) = cm (ix1 (e r)))
    (htau : ∀ r, tau' (ix1 r) = tau (ix1 (e r))) (hk : ∀ r c, k' (ix2 r c) = k (ix2 (e r) c))
    (ha : ∀ r c, a' (ix2 r c) = a (ix2 (e r) c)) (hrho : ∀ r, rho' (ix1 r) = rho (ix1 (e r))) (r : Fin b) (c : Fin 2) :
    currents v' I' x' vth' vrest' cm' tau' k' a' rho' (ix2 r c)
      = currents v I x vth vrest cm tau k a rho (ix2 (e r) c) := by
  show iPost (I' (ix2 r c)) (k' (ix2 r c)) (a' (ix2 r c)) (spikeOf v' I' x' vth' vrest' cm' tau' rho' r)
    = iPost (I (ix2 (e r) c)) (k (ix2 (e r) c)) (a (ix2 (e r) c)) (spikeOf v I x vth vrest cm tau rho (e r))
  rw [spikeOf_rows e hv hI hx hvth hvrest hcm htau hrho r, hI r c, hk r c, ha r c]

theorem spikes_rows (hv : ∀ r, v' (ix1 r) = v (ix1 (e r))) (hI : ∀ r c, I' (ix2 r c) = I (ix2 (e r) c))
    (hx : ∀ r, x' (ix1 r) = x (ix1 (e r))) (hvth : ∀ r, vth' (ix1 r) = vth (ix1 (e r)))
    (hvrest : ∀ r, vrest' (ix1 r) = vrest (ix1 (e r))) (hcm : ∀ r, cm' (ix1 r) = cm (ix1 (e r)))
    (htau : ∀ r, tau' (ix1 r) = tau (ix1 (e r))) (hrho : ∀ r, rho' (ix1 r) = rho (ix1 (e r))) (r : Fin b) :
    spikes v' I' x' vth' vrest' cm' tau' rho' (ix1 r) = spikes v I x vth vrest cm tau rho (ix1 (e r)) :=
  spikeOf_rows e hv hI hx hvth hvrest hcm htau hrho r

end Rows

end Cert.Glif

end
-- ==== Proof.RefIsGlif.lean ====
/-
  The reference program's three results are the one-step functions of `Glif`, row by row.

  The reference computes each neuron's relaxed potential `v'` with the two after-spike currents summed by a
  row sum that starts from the constant `0`; on the extended reals `0 + (I₀ + I₁) = I₀ + I₁`, which is the only
  law used here.  Everything else is the same operation under another name: the host's quotient, exponential
  and negation are the extended-real quotient, exponential and negation, and the host converts the comparison
  bit to a number directly.  The stages are read at a row `r` (index `ix1 r`, or `ix2 r c` for the per-current
  arrays) through the generated read-at-an-index lemmas of the reference's run.
-/
import proofs.«158247_j27925877359138_1_alg».proof.Proof.Gen.ReferenceIdeal.Read
import proofs.«158247_j27925877359138_1_alg».proof.Proof.Glif

noncomputable section

namespace Cert.ReferenceIdeal.RefValue

open Cert.ReferenceIdeal Cert.ReferenceIdeal.Read Idealize.ShloMosaic Idealize.ShloMosaic.ValueIdx

variable (v : FVec Ideal S8388608 .f32) (I : FVec Ideal S8388608x2 .f32)
  (x vth vreset vrest cm tau : FVec Ideal S8388608 .f32) (k a : FVec Ideal S8388608x2 .f32)
  (rho : FVec Ideal S8388608 .f32)

/-- Where the row sum over the two currents reads its operand: current `c` of row `r`. -/
theorem sum_index (r : Fin 8388608) (c : Fin 2) : idx_main_v3 (ix1 r) c = ix2 r c :=
  funext fun d => Fin.ext (by match d with | ⟨0, _⟩ => rfl | ⟨1, _⟩ => rfl)

/-- The row sum of the currents from the initial value `0` is `I₀ + I₁`. -/
theorem currents_sum (r : Fin 8388608) :
    val_main_v3 (F := Ideal) I (ix1 r) = I (ix2 r (0 : Fin 2)) + I (ix2 r (1 : Fin 2)) := by
  rw [val_main_v3_apply, val_main_cst_0_apply, Fin.sum_univ_two, sum_index, sum_index]
  show Ideal.ofBits .f32 0x00000000#32 + (I (ix2 r (0 : Fin 2)) + I (ix2 r (1 : Fin 2))) = _
  rw [Ideal.ofBits_zero_f32, zero_add]

/-- The reference's relaxed potential of row `r` is `v'`. -/
theorem relaxed (r : Fin 8388608) :
    val_main_v10 (F := Ideal) v I x vrest cm tau (ix1 r) = Glif.vPrimeOf v I x vrest cm tau r := by
  rw [val_main_v10_apply, val_main_v9_apply, val_main_v8_apply, val_main_v7_apply, val_main_v6_apply,
    val_main_v5_apply, val_main_v4_apply, currents_sum, val_main_v2_apply, val_main_v1_apply, val_main_v0_apply,
    val_main_cst_apply]
  rfl

/-- The reference's spike of row `r` is `s`. -/
theorem spike (r : Fin 8388608) :
    val_main_v15 (F := Ideal) v I x vth vrest cm tau rho (ix1 r) = Glif.spikeOf v I x vth vrest cm tau rho r := by
  rw [val_main_v15_apply, val_main_v14_apply, val_main_v13_apply, val_main_v11_apply, relaxed, val_main_v12_apply,
    val_main_cst_1_apply]
  rfl

/-- The reference's first result is the array of potentials after the step. -/
theorem potentials_eq :
    val_main_v18 (F := Ideal) v I x vth vreset vrest cm tau rho = Glif.potentials v I x vth vreset vrest cm tau rho := by
  funext i
  obtain ⟨r, rfl⟩ : ∃ r : Fin 8388608, i = ix1 r := ⟨i 0, eq_ix1 i⟩
  rw [val_main_v18_apply, relaxed, val_main_v17_apply, val_main_v16_apply, spike]
  rfl

/-- Where the broadcast of the spikes along the currents reads the spike array: row `r`. -/
theorem spike_index (r : Fin 8388608) (c : Fin 2) : idx_main_v24 (idx_main_v25 (ix2 r c)) = ix1 r :=
  funext fun d => Fin.ext (by match d with | ⟨0, _⟩ => rfl)

/-- The reference's second result is the array of after-spike currents after the step. -/
theorem currents_eq :
    val_main_v27 (F := Ideal) v I x vth vrest cm tau k a rho = Glif.currents v I x vth vrest cm tau k a rho := by
  funext i
  obtain ⟨r, c, rfl⟩ : ∃ (r : Fin 8388608) (c : Fin 2), i = ix2 r c := ⟨i 0, i 1, eq_ix2 i⟩
  rw [val_main_v27_apply, val_main_v26_apply, val_main_v25_apply, val_main_v24_apply, spike_index, spike,
    val_main_v23_apply, val_main_v22_apply, val_main_v21_apply, val_main_v20_apply, val_main_v19_apply,
    val_main_cst_2_apply]
  rfl

/-- The reference's third result is the array of spikes. -/
theorem spikes_eq :
    val_main_v15 (F := Ideal) v I x vth vrest cm tau rho = Glif.spikes v I x vth vrest cm tau rho := by
  funext i
  obtain ⟨r, rfl⟩ : ∃ r : Fin 8388608, i = ix1 r := ⟨i 0, eq_ix1 i⟩
  exact spike v I x vth vrest cm tau rho r

end Cert.ReferenceIdeal.RefValue

end
-- ==== Proof.BodyIsGlif.lean ====
/-
  What the kernel's body leaves in its three result blocks is the one-step function of `Glif` of its input blocks.

  At a grid point the body loads a block of 4096 neurons of each of the eleven state arrays, and stores three
  blocks: the potentials, the after-spike currents and the spikes.  Read row by row (the value leg's `E11`, `E12`,
  `E13`: each stored block as one index-by-index function of the loaded blocks) these are the formulas of `Glif` with
  three differences of spelling, none of which needs a finite argument:
    * the two after-spike currents are added as `I₀ + I₁` directly (the same term as in `Glif`);
    * the indicator of a threshold crossing is the comparison bit widened to a 32-bit word and converted as a signed
      integer — a bit widened with zeros and read signed is the bit read unsigned (`sitofp_bit`);
    * `−k` is computed as `0 − k`, and `0 − x = −x` on the extended reals, at the infinities too.
  To compare the two sides an array is written as a function of its row (and column) coordinates (`byRow`,
  `byRowCol`); then every read of a block at a closed-form index of row `r` computes to the entry of row `r`.
-/
import proofs.«158247_j27925877359138_1_alg».proof.Proof.ValuePatched
import proofs.«158247_j27925877359138_1_alg».proof.Proof.Glif
import Idealize.ShloMosaic.Lib.KernelVsHost

noncomputable section

namespace Cert.KernelIdeal.Body

open Cert.KernelIdeal Cert.KernelIdeal.Gen Cert.KernelIdeal.ValueP Idealize.ShloMosaic Idealize.ShloMosaic.ValueIdx

/-- A comparison bit widened to a word and converted as a signed integer is the bit as a number, `0` or `1`. -/
theorem sitofp_bit (b : BitVec 1) : FloatOps.sitofp (F := Ideal) .f32 (b.setWidth 32) = Glif.bit b := by
  show ((((b.setWidth 32).toInt : ℤ) : ℝ) : EReal) = (((b.toNat : ℕ) : ℝ) : EReal)
  rw [toInt_setWidth_bit]; norm_cast

/-- An array indexed by one coordinate is a function of that coordinate. -/
theorem byRow {n : Nat} (P : (⟨1, ![n]⟩ : Shape).Idx → EReal) : ∃ p : Fin n → EReal, P = fun y => p (y 0) :=
  ⟨fun r => P (ix1 r), funext fun y => congrArg P (eq_ix1 y)⟩

/-- An array indexed by a row and a column is a function of the two. -/
theorem byRowCol {n k : Nat} (P : (⟨2, ![n, k]⟩ : Shape).Idx → EReal) :
    ∃ p : Fin n → Fin k → EReal, P = fun y => p (y 0) (y 1) :=
  ⟨fun r c => P (ix2 r c), funext fun y => congrArg P (eq_ix2 y)⟩

/-- The stored block of potentials, at row `r`: `v⁺` of row `r` of the loaded blocks. -/
theorem E11_row (P0 P1 P2 : Vec Ideal S4096 .f32) (P3 : Vec Ideal S4096x2 .f32) (P4 P5 P6 P7 P8 : Vec Ideal S4096 .f32)
    (r : Fin 4096) :
    E11 (F := Ideal) P0 P1 P2 P3 P4 P5 P6 P7 P8 (ix1 r) = Glif.potentials (n := 4096) P5 P3 P2 P6 P7 P0 P4 P1 P8 (ix1 r) := by
  obtain ⟨p0, rfl⟩ := byRow P0
  obtain ⟨p1, rfl⟩ := byRow P1
  obtain ⟨p2, rfl⟩ := byRow P2
  obtain ⟨p3, rfl⟩ := byRowCol P3
  obtain ⟨p4, rfl⟩ := byRow P4
  obtain ⟨p5, rfl⟩ := byRow P5
  obtain ⟨p6, rfl⟩ := byRow P6
  obtain ⟨p7, rfl⟩ := byRow P7
  obtain ⟨p8, rfl⟩ := byRow P8
  simp only [E11, sitofp_bit]
  rfl

/-- The stored block of after-spike currents, at row `r` and current `c`: `I_c⁺` of row `r` of the loaded blocks. -/
theorem E12_row (P0 P1 P2 : Vec Ideal S4096x2 .f32) (P3 P4 P5 P6 P7 P8 P9 : Vec Ideal S4096 .f32) (r : Fin 4096) (c : Fin 2) :
    E12 (F := Ideal) P0 P1 P2 P3 P4 P5 P6 P7 P8 P9 (ix2 r c)
      = Glif.currents (n := 4096) P7 P0 P5 P8 P3 P6 P4 P1 P2 P9 (ix2 r c) := by
  obtain ⟨p0, rfl⟩ := byRowCol P0
  obtain ⟨p1, rfl⟩ := byRowCol P1
  obtain ⟨p2, rfl⟩ := byRowCol P2
  obtain ⟨p3, rfl⟩ := byRow P3
  obtain ⟨p4, rfl⟩ := byRow P4
  obtain ⟨p5, rfl⟩ := byRow P5
  obtain ⟨p6, rfl⟩ := byRow P6
  obtain ⟨p7, rfl⟩ := byRow P7
  obtain ⟨p8, rfl⟩ := byRow P8
  obtain ⟨p9, rfl⟩ := byRow P9
  simp only [E12, sitofp_bit, Ideal.subf_zero_eq_hostNegf]
  rfl

/-- The stored block of spikes, at row `r`: `s` of row `r` of the loaded blocks. -/
theorem E13_row (P0 P1 P2 : Vec Ideal S4096 .f32) (P3 : Vec Ideal S4096x2 .f32) (P4 P5 P6 P7 : Vec Ideal S4096 .f32)
    (r : Fin 4096) :
    E13 (F := Ideal) P0 P1 P2 P3 P4 P5 P6 P7 (ix1 r) = Glif.spikes (n := 4096) P5 P3 P2 P6 P0 P4 P1 P7 (ix1 r) := by
  obtain ⟨p0, rfl⟩ := byRow P0
  obtain ⟨p1, rfl⟩ := byRow P1
  obtain ⟨p2, rfl⟩ := byRow P2
  obtain ⟨p3, rfl⟩ := byRowCol P3
  obtain ⟨p4, rfl⟩ := byRow P4
  obtain ⟨p5, rfl⟩ := byRow P5
  obtain ⟨p6, rfl⟩ := byRow P6
  obtain ⟨p7, rfl⟩ := byRow P7
  simp only [E13, sitofp_bit]
  rfl

theorem zeros1 : (![0] : Fin 1 → Nat) = fun _ => 0 := funext fun a => by fin_cases a; rfl
theorem zeros2 : (![0, 0] : Fin 2 → Nat) = fun _ => 0 := funext fun a => by fin_cases a <;> rfl

section Blocks

variable (x0 : Vec Ideal S4096 .f32) (x1 : Vec Ideal S4096x2 .f32) (x2 x3 x4 x5 x6 x7 : Vec Ideal S4096 .f32)
  (x8 x9 : Vec Ideal S4096x2 .f32) (x10 : Vec Ideal S4096 .f32)

/-- The body's block of potentials is the potentials after one step of the loaded blocks. -/
theorem potentials_block :
    out0_11 x0 x1 x2 x3 x4 x5 x6 x7 x8 x9 x10 = Glif.potentials (n := 4096) x0 x1 x2 x3 x4 x5 x6 x7 x10 := by
  funext y
  obtain ⟨r, rfl⟩ : ∃ r : Fin 4096, y = ix1 r := ⟨y 0, eq_ix1 y⟩
  unfold out0_11
  simp only [View.ld_unit_zero (S := S4096) zeros1, View.ld_unit_zero (S := S4096x2) zeros2]
  rw [canon11_eq]
  exact E11_row x5 x7 x2 x1 x6 x0 x3 x4 x10 r

/-- The body's block of after-spike currents is the currents after one step of the loaded blocks. -/
theorem currents_block :
    out0_12 x0 x1 x2 x3 x4 x5 x6 x7 x8 x9 x10 = Glif.currents (n := 4096) x0 x1 x2 x3 x5 x6 x7 x8 x9 x10 := by
  funext y
  obtain ⟨r, c, rfl⟩ : ∃ (r : Fin 4096) (c : Fin 2), y = ix2 r c := ⟨y 0, y 1, eq_ix2 y⟩
  unfold out0_12
  simp only [View.ld_unit_zero (S := S4096) zeros1, View.ld_unit_zero (S := S4096x2) zeros2]
  rw [canon12_eq]
  exact E12_row x1 x8 x9 x5 x7 x2 x6 x0 x3 x10 r c

/-- The body's block of spikes is the spikes of one step of the loaded blocks. -/
theorem spikes_block :
    out0_13 x0 x1 x2 x3 x4 x5 x6 x7 x8 x9 x10 = Glif.spikes (n := 4096) x0 x1 x2 x3 x5 x6 x7 x10 := by
  funext y
  obtain ⟨r, rfl⟩ : ∃ r : Fin 4096, y = ix1 r := ⟨y 0, eq_ix1 y⟩
  unfold out0_13
  simp only [View.ld_unit_zero (S := S4096) zeros1, View.ld_unit_zero (S := S4096x2) zeros2]
  rw [canon13_eq]
  exact E13_row x5 x7 x2 x1 x6 x0 x3 x10 r

end Blocks

end Cert.KernelIdeal.Body

end
-- ==== Proof.KernelIsGlif.lean ====
/-
  After the idealized kernel's run its three result arrays are the one-step functions of `Glif` of the argument arrays.

  The kernel runs over 2048 grid points; at point `t` every window — the eleven arguments and the three results — is at
  block `t` of its array: rows `4096 t … 4096 t + 4095` (and, for the arrays with one column per after-spike current, both
  columns).  So row `r` of a block at `t` is row `4096 t + r` of the array (`rowAt`).  The body leaves in the result
  blocks the one-step functions of the argument blocks (`Body`), and these functions are local to a row
  (`Glif.potentials_rows` …), so what point `t` writes back is block `t` of the one-step function of the whole arrays.
  The 2048 blocks tile each result array — row `i` lies in block `i / 4096` — so after the last write-back each result
  array is that function everywhere.
-/
import proofs.«158247_j27925877359138_1_alg».proof.Proof.BodyIsGlif

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where the blocks sit -/

/-- At grid point `t` every window is at block `t` along the neurons and (where there is one) at block `0` along the
    after-spike currents: decided over the 2048 points. -/
theorem block_of_point : ∀ t : Fin cfg0.N,
    win0_0.index t (0 : Fin 1) = t.val ∧ win0_1.index t (0 : Fin 2) = t.val ∧ win0_1.index t (1 : Fin 2) = 0
    ∧ win0_2.index t (0 : Fin 1) = t.val ∧ win0_3.index t (0 : Fin 1) = t.val ∧ win0_4.index t (0 : Fin 1) = t.val
    ∧ win0_5.index t (0 : Fin 1) = t.val ∧ win0_6.index t (0 : Fin 1) = t.val ∧ win0_7.index t (0 : Fin 1) = t.val
    ∧ win0_8.index t (0 : Fin 2) = t.val ∧ win0_8.index t (1 : Fin 2) = 0
    ∧ win0_9.index t (0 : Fin 2) = t.val ∧ win0_9.index t (1 : Fin 2) = 0
    ∧ win0_10.index t (0 : Fin 1) = t.val ∧ win0_11.index t (0 : Fin 1) = t.val
    ∧ win0_12.index t (0 : Fin 2) = t.val ∧ win0_12.index t (1 : Fin 2) = 0
    ∧ win0_13.index t (0 : Fin 1) = t.val :=
  (by decide +kernel : ∀ t : Fin grid0.N, _)

/-- Row `r` of a block at grid point `t` is row `4096 t + r` of the array. -/
def rowAt (t : Fin cfg0.N) (r : Fin 4096) : Fin 8388608 :=
  ⟨t.val * 4096 + r.val, by
    have ht : t.val < grid0.N := t.isLt
    rw [N_0] at ht
    have hr : r.val < 4096 := r.isLt
    omega⟩

/-- An index along the neurons whose coordinate is `(block index) · 4096 + 1 · r`, the block index being `t`, is row `rowAt t r`. -/
theorem neuron_index (j : S8388608.Idx) (t : Fin cfg0.N) (r : Fin 4096) (b : Nat) (hb : b = t.val)
    (h : (j 0).val = b * 4096 + 1 * r.val) : j = ix1 (rowAt t r) := by
  subst hb
  refine funext fun a => Fin.ext ?_
  match a with
  | ⟨0, _⟩ => show (j 0).val = t.val * 4096 + r.val; omega

/-- The same with a column: the column's block index is `0`, so column `k` of the block is column `k` of the array. -/
theorem current_index (j : S8388608x2.Idx) (t : Fin cfg0.N) (r : Fin 4096) (k : Fin 2) (b b' : Nat) (hb : b = t.val)
    (hb' : b' = 0) (h0 : (j 0).val = b * 4096 + 1 * r.val) (h1 : (j 1).val = b' * 2 + 1 * k.val) :
    j = ix2 (rowAt t r) k := by
  subst hb hb'
  refine funext fun a => Fin.ext ?_
  match a with
  | ⟨0, _⟩ => show (j 0).val = t.val * 4096 + r.val; omega
  | ⟨1, _⟩ => show (j 1).val = k.val; omega

/-- The conjuncts of `block_of_point`, by window. -/
theorem at0 (t : Fin cfg0.N) : win0_0.index t (0 : Fin 1) = t.val := (block_of_point t).1
theorem at1 (t : Fin cfg0.N) : win0_1.index t (0 : Fin 2) = t.val ∧ win0_1.index t (1 : Fin 2) = 0 := by
  obtain ⟨-, h, h', -⟩ := block_of_point t; exact ⟨h, h'⟩
theorem at2 (t : Fin cfg0.N) : win0_2.index t (0 : Fin 1) = t.val := by
  obtain ⟨-, -, -, h, -⟩ := block_of_point t; exact h
theorem at3 (t : Fin cfg0.N) : win0_3.index t (0 : Fin 1) = t.val := by
  obtain ⟨-, -, -, -, h, -⟩ := block_of_point t; exact h
theorem at4 (t : Fin cfg0.N) : win0_4.index t (0 : Fin 1) = t.val := by
  obtain ⟨-, -, -, -, -, h, -⟩ := block_of_point t; exact h
theorem at5 (t : Fin cfg0.N) : win0_5.index t (0 : Fin 1) = t.val := by
  obtain ⟨-, -, -, -, -, -, h, -⟩ := block_of_point t; exact h
theorem at6 (t : Fin cfg0.N) : win0_6.index t (0 : Fin 1) = t.val := by
  obtain ⟨-, -, -, -, -, -, -, h, -⟩ := block_of_point t; exact h
theorem at7 (t : Fin cfg0.N) : win0_7.index t (0 : Fin 1) = t.val := by
  obtain ⟨-, -, -, -, -, -, -, -, h, -⟩ := block_of_point t; exact h
theorem at8 (t : Fin cfg0.N) : win0_8.index t (0 : Fin 2) = t.val ∧ win0_8.index t (1 : Fin 2) = 0 := by
  obtain ⟨-, -, -, -, -, -, -, -, -, h, h', -⟩ := block_of_point t; exact ⟨h, h'⟩
theorem at9 (t : Fin cfg0.N) : win0_9.index t (0 : Fin 2) = t.val ∧ win0_9.index t (1 : Fin 2) = 0 := by
  obtain ⟨-, -, -, -, -, -, -, -, -, -, -, h, h', -⟩ := block_of_point t; exact ⟨h, h'⟩
theorem at10 (t : Fin cfg0.N) : win0_10.index t (0 : Fin 1) = t.val := by
  obtain ⟨-, -, -, -, -, -, -, -, -, -, -, -, -, h, -⟩ := block_of_point t; exact h
theorem at11 (t : Fin cfg0.N) : win0_11.index t (0 : Fin 1) = t.val := by
  obtain ⟨-, -, -, -, -, -, -, -, -, -, -, -, -, -, h, -⟩ := block_of_point t; exact h
theorem at12 (t : Fin cfg0.N) : win0_12.index t (0 : Fin 2) = t.val ∧ win0_12.index t (1 : Fin 2) = 0 := by
  obtain ⟨-, -, -, -, -, -, -, -, -, -, -, -, -, -, -, h, h', -⟩ := block_of_point t; exact ⟨h, h'⟩
theorem at13 (t : Fin cfg0.N) : win0_13.index t (0 : Fin 1) = t.val := by
  obtain ⟨-, -, -, -, -, -, -, -, -, -, -, -, -, -, -, -, -, h⟩ := block_of_point t; exact h

/-! ## The argument blocks are rows of the argument arrays

Each block of an argument at grid point `t`, read at row `r` (and column `k`), is the argument array at row `rowAt t r`
(and column `k`): a block's element sits at block index × block size + 1 × its coordinate in the block. -/

theorem read0 (c : Dev nD) (t : Fin cfg0.N) (r : Fin 4096) :
    (iblk m c 0 t : Vec Ideal S4096 .f32) (ix1 r) = V m c main_arg0 (ix1 (rowAt t r)) :=
  congrArg (V m c main_arg0) (neuron_index (((cfg0.win 0).blk t).view.emb (ix1 r)) t r _ (at0 t) rfl)

theorem read1 (c : Dev nD) (t : Fin cfg0.N) (r : Fin 4096) (k : Fin 2) :
    (iblk m c 1 t : Vec Ideal S4096x2 .f32) (ix2 r k) = V m c main_arg1 (ix2 (rowAt t r) k) :=
  congrArg (V m c main_arg1)
    (current_index (((cfg0.win 1).blk t).view.emb (ix2 r k)) t r k _ _ (at1 t).1 (at1 t).2 rfl rfl)

theorem read2 (c : Dev nD) (t : Fin cfg0.N) (r : Fin 4096) :
    (iblk m c 2 t : Vec Ideal S4096 .f32) (ix1 r) = V m c main_arg2 (ix1 (rowAt t r)) :=
  congrArg (V m c main_arg2) (neuron_index (((cfg0.win 2).blk t).view.emb (ix1 r)) t r _ (at2 t) rfl)

theorem read3 (c : Dev nD) (t : Fin cfg0.N) (r : Fin 4096) :
    (iblk m c 3 t : Vec Ideal S4096 .f32) (ix1 r) = V m c main_arg3 (ix1 (rowAt t r)) :=
  congrArg (V m c main_arg3) (neuron_index (((cfg0.win 3).blk t).view.emb (ix1 r)) t r _ (at3 t) rfl)

theorem read4 (c : Dev nD) (t : Fin cfg0.N) (r : Fin 4096) :
    (iblk m c 4 t : Vec Ideal S4096 .f32) (ix1 r) = V m c main_arg4 (ix1 (rowAt t r)) :=
  congrArg (V m c main_arg4) (neuron_index (((cfg0.win 4).blk t).view.emb (ix1 r)) t r _ (at4 t) rfl)

theorem read5 (c : Dev nD) (t : Fin cfg0.N) (r : Fin 4096) :
    (iblk m c 5 t : Vec Ideal S4096 .f32) (ix1 r) = V m c main_arg5 (ix1 (rowAt t r)) :=
  congrArg (V m c main_arg5) (neuron_index (((cfg0.win 5).blk t).view.emb (ix1 r)) t r _ (at5 t) rfl)

theorem read6 (c : Dev nD) (t : Fin cfg0.N) (r : Fin 4096) :
    (iblk m c 6 t : Vec Ideal S4096 .f32) (ix1 r) = V m c main_arg6 (ix1 (rowAt t r)) :=
  congrArg (V m c main_arg6) (neuron_index (((cfg0.win 6).blk t).view.emb (ix1 r)) t r _ (at6 t) rfl)

theorem read7 (c : Dev nD) (t : Fin cfg0.N) (r : Fin 4096) :
    (iblk m c 7 t : Vec Ideal S4096 .f32) (ix1 r) = V m c main_arg7 (ix1 (rowAt t r)) :=
  congrArg (V m c main_arg7) (neuron_index (((cfg0.win 7).blk t).view.emb (ix1 r)) t r _ (at7 t) rfl)

theorem read8 (c : Dev nD) (t : Fin cfg0.N) (r : Fin 4096) (k : Fin 2) :
    (iblk m c 8 t : Vec Ideal S4096x2 .f32) (ix2 r k) = V m c main_arg8 (ix2 (rowAt t r) k) :=
  congrArg (V m c main_arg8)
    (current_index (((cfg0.win 8).blk t).view.emb (ix2 r k)) t r k _ _ (at8 t).1 (at8 t).2 rfl rfl)

theorem read9 (c : Dev nD) (t : Fin cfg0.N) (r : Fin 4096) (k : Fin 2) :
    (iblk m c 9 t : Vec Ideal S4096x2 .f32) (ix2 r k) = V m c main_arg9 (ix2 (rowAt t r) k) :=
  congrArg (V m c main_arg9)
    (current_index (((cfg0.win 9).blk t).view.emb (ix2 r k)) t r k _ _ (at9 t).1 (at9 t).2 rfl rfl)

theorem read10 (c : Dev nD) (t : Fin cfg0.N) (r : Fin 4096) :
    (iblk m c 10 t : Vec Ideal S4096 .f32) (ix1 r) = V m c main_arg10 (ix1 (rowAt t r)) :=
  congrArg (V m c main_arg10) (neuron_index (((cfg0.win 10).blk t).view.emb (ix1 r)) t r _ (at10 t) rfl)

/-! ## What a grid point writes back -/

/-- Where row `r` of the block of potentials at point `t` goes in its array. -/
theorem potentials_row (t : Fin cfg0.N) (r : Fin 4096) :
    (((cfg0.win 11).blk t).view.emb (ix1 r) : S8388608.Idx) = ix1 (rowAt t r) :=
  neuron_index _ t r _ (at11 t) rfl

/-- Where row `r`, current `k` of the block of currents at point `t` goes in its array. -/
theorem currents_row (t : Fin cfg0.N) (r : Fin 4096) (k : Fin 2) :
    (((cfg0.win 12).blk t).view.emb (ix2 r k) : S8388608x2.Idx) = ix2 (rowAt t r) k :=
  current_index _ t r k _ _ (at12 t).1 (at12 t).2 rfl rfl

/-- Where row `r` of the block of spikes at point `t` goes in its array. -/
theorem spikes_row (t : Fin cfg0.N) (r : Fin 4096) :
    (((cfg0.win 13).blk t).view.emb (ix1 r) : S8388608.Idx) = ix1 (rowAt t r) :=
  neuron_index _ t r _ (at13 t) rfl

/-- The potentials after one step of the argument arrays as the kernel finds them. -/
abbrev potentialsOf (c : Dev nD) : S8388608.Idx → EReal :=
  Glif.potentials (n := 8388608) (V m c main_arg0) (V m c main_arg1) (V m c main_arg2) (V m c main_arg3) (V m c main_arg4)
    (V m c main_arg5) (V m c main_arg6) (V m c main_arg7) (V m c main_arg10)
/-- The after-spike currents after one step of the argument arrays as the kernel finds them. -/
abbrev currentsOf (c : Dev nD) : S8388608x2.Idx → EReal :=
  Glif.currents (n := 8388608) (V m c main_arg0) (V m c main_arg1) (V m c main_arg2) (V m c main_arg3) (V m c main_arg5)
    (V m c main_arg6) (V m c main_arg7) (V m c main_arg8) (V m c main_arg9) (V m c main_arg10)
/-- The spikes of one step of the argument arrays as the kernel finds them. -/
abbrev spikesOf (c : Dev nD) : S8388608.Idx → EReal :=
  Glif.spikes (n := 8388608) (V m c main_arg0) (V m c main_arg1) (V m c main_arg2) (V m c main_arg3) (V m c main_arg5)
    (V m c main_arg6) (V m c main_arg7) (V m c main_arg10)

/-- Point `t` writes back block `t` of the potentials after one step of the argument arrays. -/
theorem flushed_potentials (c : Dev nD) (t : Fin cfg0.N) :
    (dats m 0 c).flushed 11 t = ((cfg0.win 11).blk t).view.read (Elt Ideal) (potentialsOf m c) := by
  rw [ValueP.flushed11]
  funext y
  obtain ⟨r, rfl⟩ : ∃ r : Fin 4096, y = ix1 r := ⟨y 0, eq_ix1 y⟩
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix1 r)
    = potentialsOf m c (((cfg0.win 11).blk t).view.emb (ix1 r))
  rw [potentials_row t r]
  refine (congrFun (Body.potentials_block (iblk m c 0 t) (iblk m c 1 t) (iblk m c 2 t) (iblk m c 3 t) (iblk m c 4 t)
    (iblk m c 5 t) (iblk m c 6 t) (iblk m c 7 t) (iblk m c 8 t) (iblk m c 9 t) (iblk m c 10 t)) (ix1 r)).trans ?_
  exact Glif.potentials_rows (rowAt t) (read0 m c t) (read1 m c t) (read2 m c t) (read3 m c t) (read4 m c t) (read5 m c t)
    (read6 m c t) (read7 m c t) (read10 m c t) r

/-- Point `t` writes back block `t` of the after-spike currents after one step of the argument arrays. -/
theorem flushed_currents (c : Dev nD) (t : Fin cfg0.N) :
    (dats m 0 c).flushed 12 t = ((cfg0.win 12).blk t).view.read (Elt Ideal) (currentsOf m c) := by
  rw [ValueP.flushed12]
  funext y
  obtain ⟨r, k, rfl⟩ : ∃ (r : Fin 4096) (k : Fin 2), y = ix2 r k := ⟨y 0, y 1, eq_ix2 y⟩
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r k)
    = currentsOf m c (((cfg0.win 12).blk t).view.emb (ix2 r k))
  rw [currents_row t r k]
  refine (congrFun (Body.currents_block (iblk m c 0 t) (iblk m c 1 t) (iblk m c 2 t) (iblk m c 3 t) (iblk m c 4 t)
    (iblk m c 5 t) (iblk m c 6 t) (iblk m c 7 t) (iblk m c 8 t) (iblk m c 9 t) (iblk m c 10 t)) (ix2 r k)).trans ?_
  exact Glif.currents_rows (rowAt t) (read0 m c t) (read1 m c t) (read2 m c t) (read3 m c t) (read5 m c t) (read6 m c t)
    (read7 m c t) (read8 m c t) (read9 m c t) (read10 m c t) r k

/-- Point `t` writes back block `t` of the spikes of one step of the argument arrays. -/
theorem flushed_spikes (c : Dev nD) (t : Fin cfg0.N) :
    (dats m 0 c).flushed 13 t = ((cfg0.win 13).blk t).view.read (Elt Ideal) (spikesOf m c) := by
  rw [ValueP.flushed13]
  funext y
  obtain ⟨r, rfl⟩ : ∃ r : Fin 4096, y = ix1 r := ⟨y 0, eq_ix1 y⟩
  show out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix1 r)
    = spikesOf m c (((cfg0.win 13).blk t).view.emb (ix1 r))
  rw [spikes_row t r]
  refine (congrFun (Body.spikes_block (iblk m c 0 t) (iblk m c 1 t) (iblk m c 2 t) (iblk m c 3 t) (iblk m c 4 t)
    (iblk m c 5 t) (iblk m c 6 t) (iblk m c 7 t) (iblk m c 8 t) (iblk m c 9 t) (iblk m c 10 t)) (ix1 r)).trans ?_
  exact Glif.spikes_rows (rowAt t) (read0 m c t) (read1 m c t) (read2 m c t) (read3 m c t) (read5 m c t) (read6 m c t)
    (read7 m c t) (read10 m c t) r

/-! ## The blocks tile the result arrays

An index of a result array is in point `t`'s block iff each coordinate is in the block's range on its axis; row `i` is in
the block of point `i / 4096`, and both after-spike currents of a row are in the row's block. -/

theorem mem_block11 (t : Fin cfg0.N) (i : S8388608.Idx) :
    i ∈ ((cfg0.win 11).blk t).view.set ↔ ∀ a : Fin 1, win0_11.index t a * S4096.size a ≤ (i a).val
      ∧ (i a).val < win0_11.index t a * S4096.size a + S4096.size a := by
  show i ∈ ((View.whole main_v0_0).slice (win0_11.rect t)).set ↔ _
  rw [View.set_slice_whole, Rect.mem_set_unit]
  exact Iff.rfl

theorem mem_block12 (t : Fin cfg0.N) (i : S8388608x2.Idx) :
    i ∈ ((cfg0.win 12).blk t).view.set ↔ ∀ a : Fin 2, win0_12.index t a * S4096x2.size a ≤ (i a).val
      ∧ (i a).val < win0_12.index t a * S4096x2.size a + S4096x2.size a := by
  show i ∈ ((View.whole main_v0_1).slice (win0_12.rect t)).set ↔ _
  rw [View.set_slice_whole, Rect.mem_set_unit]
  exact Iff.rfl

theorem mem_block13 (t : Fin cfg0.N) (i : S8388608.Idx) :
    i ∈ ((cfg0.win 13).blk t).view.set ↔ ∀ a : Fin 1, win0_13.index t a * S4096.size a ≤ (i a).val
      ∧ (i a).val < win0_13.index t a * S4096.size a + S4096.size a := by
  show i ∈ ((View.whole main_v0_2).slice (win0_13.rect t)).set ↔ _
  rw [View.set_slice_whole, Rect.mem_set_unit]
  exact Iff.rfl

/-- Row `n` lies in the block of 4096 rows that starts at `(n / 4096) · 4096`. -/
theorem block_bounds (n b : Nat) (hb : b = n / 4096) : b * 4096 ≤ n ∧ n < b * 4096 + 4096 := by
  subst hb; omega

/-- The grid point whose block holds row `n`. -/
def pointOf (n : Nat) (hn : n < 8388608) : Fin cfg0.N :=
  ⟨n / 4096, lt_of_lt_of_eq (by omega : n / 4096 < 2048) N_0.symm⟩

theorem cover11 (i : S8388608.Idx) :
    ∃ t : Fin cfg0.N, (cfg0.win 11).flush t = true ∧ i ∈ ((cfg0.win 11).blk t).view.set := by
  refine ⟨pointOf (i 0).val (i 0).isLt, flush0_11 _, ?_⟩
  rw [mem_block11]
  intro a
  match a with
  | ⟨0, _⟩ => exact block_bounds (i 0).val _ (at11 (pointOf (i 0).val (i 0).isLt))

theorem cover12 (i : S8388608x2.Idx) :
    ∃ t : Fin cfg0.N, (cfg0.win 12).flush t = true ∧ i ∈ ((cfg0.win 12).blk t).view.set := by
  have hk : (i 1).val < 2 := (i 1).isLt
  refine ⟨pointOf (i 0).val (i 0).isLt, flush0_12 _, ?_⟩
  rw [mem_block12]
  intro a
  match a with
  | ⟨0, _⟩ => exact block_bounds (i 0).val _ (at12 (pointOf (i 0).val (i 0).isLt)).1
  | ⟨1, _⟩ =>
    show win0_12.index (pointOf (i 0).val (i 0).isLt) (1 : Fin 2) * 2 ≤ (i 1).val
      ∧ (i 1).val < win0_12.index (pointOf (i 0).val (i 0).isLt) (1 : Fin 2) * 2 + 2
    rw [(at12 (pointOf (i 0).val (i 0).isLt)).2]
    omega

theorem cover13 (i : S8388608.Idx) :
    ∃ t : Fin cfg0.N, (cfg0.win 13).flush t = true ∧ i ∈ ((cfg0.win 13).blk t).view.set := by
  refine ⟨pointOf (i 0).val (i 0).isLt, flush0_13 _, ?_⟩
  rw [mem_block13]
  intro a
  match a with
  | ⟨0, _⟩ => exact block_bounds (i 0).val _ (at13 (pointOf (i 0).val (i 0).isLt))

/-! ## The result arrays after the run -/

/-- After the run the first result array holds the potentials after one step of the argument arrays. -/
theorem final_potentials (c : Dev nD) : (dats m 0 c).arrAt 11 cfg0.N = potentialsOf m c :=
  (dats m 0 c).arrAt_eq_of_cover 11 (potentialsOf m c) (fun t _ => flushed_potentials m c t) cover11

/-- After the run the second result array holds the after-spike currents after one step of the argument arrays. -/
theorem final_currents (c : Dev nD) : (dats m 0 c).arrAt 12 cfg0.N = currentsOf m c :=
  (dats m 0 c).arrAt_eq_of_cover 12 (currentsOf m c) (fun t _ => flushed_currents m c t) cover12

/-- After the run the third result array holds the spikes of one step of the argument arrays. -/
theorem final_spikes (c : Dev nD) : (dats m 0 c).arrAt 13 cfg0.N = spikesOf m c :=
  (dats m 0 c).arrAt_eq_of_cover 13 (spikesOf m c) (fun t _ => flushed_spikes m c t) cover13

/-- Every weakly fair execution of the idealized kernel terminates with the three result arrays at the one-step functions
    of the argument arrays, and the arguments unchanged. -/
theorem run : θ_run defs (onTc (τ := τ) (main (F := Ideal))) ⟨m, fun _ => 0, ρ⟩ fun r => ∀ c : Dev nD,
      r.2.mem ((c : Thread nD τ).loc main_v0_0) = potentialsOf m c
      ∧ r.2.mem ((c : Thread nD τ).loc main_v0_1) = currentsOf m c
      ∧ r.2.mem ((c : Thread nD τ).loc main_v0_2) = spikesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_potentials m c), (h c).2.1.trans (final_currents m c),
      (h c).2.2.1.trans (final_spikes m c), (h c).2.2.2⟩)
    (ValueP.run_blocks m ρ)

end Cert.KernelIdeal.ArrayValue

end
-- ==== Proof.lean ====
/-
  The certificate of one step of a generalised leaky integrate-and-fire neuron over 8 388 608 neurons: a kernel that
  works through the state in 2048 blocks of 4096 neurons against a reference that computes the step on the whole arrays.

  Both compute, for every neuron, the relaxed potential `v' = v_∞ + (v − v_∞) e^{−1/τ}` with
  `v_∞ = v_rest + τ (x + (I₀ + I₁)) / c_m`, the spike `s = [v' − v_th > 0] · ρ`, the potential after a soft reset
  `v' − (v_th − v_reset) s` and the after-spike currents `I_j e^{−k_j} + a_j s` (module `Glif` states these on the
  extended reals).  On the extended reals the two programs differ only in spelling: the reference sums the two
  currents of a neuron from an initial `0`, and `0 + x = x`; the kernel writes `−k` as `0 − k`, and `0 − x = −x`;
  the kernel converts the comparison bit through a 32-bit word, which reads the same number.  None of these laws needs
  a finite argument, so the precondition is not opened.

  The idealized kernel's run ends with each result array at the one-step function of the argument arrays
  (`KernelIsGlif`: the body on one block, the blocks as rows of the arrays, the blocks tiling the arrays); the
  reference's run ends with the same functions (`RefIsGlif`, over the generated run of the reference read one
  operation at a time).  The three frames are the generated frame runs; the idealization rewrote nothing, so
  `preserves` is trivial.
-/
import proofs.«158247_j27925877359138_1_alg».proof.Defs
import proofs.«158247_j27925877359138_1_alg».proof.Proof.Gen.Kernel
import proofs.«158247_j27925877359138_1_alg».proof.Proof.Gen.Kernel.Skeleton
import proofs.«158247_j27925877359138_1_alg».proof.Proof.Gen.Kernel.Launch
import proofs.«158247_j27925877359138_1_alg».proof.Proof.Gen.Kernel.Points
import proofs.«158247_j27925877359138_1_alg».proof.Proof.Gen.Kernel.Frame
import proofs.«158247_j27925877359138_1_alg».proof.Proof.Gen.KernelIdeal
import proofs.«158247_j27925877359138_1_alg».proof.Proof.Gen.KernelIdeal.Skeleton
import proofs.«158247_j27925877359138_1_alg».proof.Proof.Gen.KernelIdeal.Launch
import proofs.«158247_j27925877359138_1_alg».proof.Proof.Gen.KernelIdeal.Points
import proofs.«158247_j27925877359138_1_alg».proof.Proof.Gen.KernelIdeal.Frame
import proofs.«158247_j27925877359138_1_alg».proof.Proof.Gen.ReferenceIdeal
import proofs.«158247_j27925877359138_1_alg».proof.Proof.Gen.Pre_finite_inputs
import proofs.«158247_j27925877359138_1_alg».proof.Proof.Gen.ReferenceIdeal.Run
import proofs.«158247_j27925877359138_1_alg».proof.Proof.Gen.ReferenceIdeal.Read
import proofs.«158247_j27925877359138_1_alg».proof.Proof.RefIsGlif
import proofs.«158247_j27925877359138_1_alg».proof.Proof.KernelIsGlif
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the eleven arguments the idealized kernel and the reference end with the same three
    arrays: the potentials, the after-spike currents and the spikes of one step of the arguments. -/
theorem algebraic : Cert.algebraic_KernelIdeal_ReferenceIdeal := by
  intro m ρ m' ρ' _ hagree
  refine ⟨_, _, _, Cert.KernelIdeal.ArrayValue.run m ρ, ?_⟩
  refine (θ_run Cert.ReferenceIdeal.defs _ _).mono (fun _ h c => ?_) (Cert.ReferenceIdeal.Value.run (F := Ideal) m' ρ')
  obtain ⟨hp, hc, hs, hargs⟩ := h c
  obtain ⟨a0, a1, a2, a3, a4, a5, a6, a7, a8, a9, a10⟩ := hagree c
  refine ⟨?_, ?_, ?_, hargs⟩
  · rw [hp, Cert.ReferenceIdeal.Read.val_main_v18_eq, Cert.ReferenceIdeal.RefValue.potentials_eq,
      a0, a1, a2, a3, a4, a5, a6, a7, a10]
  · rw [hc, Cert.ReferenceIdeal.Read.val_main_v27_eq, Cert.ReferenceIdeal.RefValue.currents_eq,
      a0, a1, a2, a3, a5, a6, a7, a8, a9, a10]
  · rw [hs, Cert.ReferenceIdeal.Read.val_main_v15_eq, Cert.ReferenceIdeal.RefValue.spikes_eq,
      a0, a1, a2, a3, a5, a6, a7, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
